-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S16384x1024 : Shape := ⟨2, ![16384, 1024]⟩
abbrev S32768x1024 : Shape := ⟨2, ![32768, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  bcast_S_S32768x1024 : S_.BroadcastsInDim S32768x1024 (![] : Fin 0 → Fin S32768x1024.rank)
  reducesTo_S32768x1024_S_d0_1 : S32768x1024.ReducesTo [0, 1] S_

variable [Facts]

def fn {F : FTy → Type} [FloatOps F] (main_arg0 : FVec F S2048x1024 .f32) (main_arg1 : FVec F S16384x1024 .f32) (main_arg2 : FVec F S32768x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S32768x1024 .f32 := Host.absf main_arg2
  let main_cst_2 : FVec F S_ .f32 := constant S_ .f32 0x7F800000#32
  let main_v10 : FVec F S32768x1024 .f32 := broadcastInDim S32768x1024 ![] bcast_S_S32768x1024 main_cst_2
  let main_v11 : IVec S32768x1024 1 := cmpf .olt main_v9 main_v10
  let main_c_3 : IVec S_ 1 := constantI S_ 1 1#1
  let main_v12 : IVec S_ 1 := (fun x v => Host.reduce IntOp.andi x v reducesTo_S32768x1024_S_d0_1 h_S_) main_v11 main_c_3
  let main_v13 : IVec S_ 1 := andi main_v8 main_v12
  main_v13
-- ==== Kernel.lean ====
abbrev S2048x1024 : Shape := ⟨2, ![2048, 1024]⟩
abbrev S16384x1024 : Shape := ⟨2, ![16384, 1024]⟩
abbrev S32768x1024 : Shape := ⟨2, ![32768, 1024]⟩
abbrev S2048x8x1024 : Shape := ⟨3, ![2048, 8, 1024]⟩
abbrev S2048x16x1024 : Shape := ⟨3, ![2048, 16, 1024]⟩
abbrev S1x1 : Shape := ⟨2, ![1, 1]⟩
abbrev S64x1024 : Shape := ⟨2, ![64, 1024]⟩
abbrev S64x8x1024 : Shape := ⟨3, ![64, 8, 1024]⟩
abbrev S64x16x1024 : Shape := ⟨3, ![64, 16, 1024]⟩
abbrev S64x1x1024 : Shape := ⟨3, ![64, 1, 1024]⟩
abbrev S64x8 : Shape := ⟨2, ![64, 8]⟩
abbrev S64x16 : Shape := ⟨2, ![64, 16]⟩
abbrev S64x8x1 : Shape := ⟨3, ![64, 8, 1]⟩
abbrev S64x1x16 : Shape := ⟨3, ![64, 1, 16]⟩
abbrev S64x8x16 : Shape := ⟨3, ![64, 8, 16]⟩
abbrev S64 : Shape := ⟨1, ![64]⟩
abbrev S64x1 : Shape := ⟨2, ![64, 1]⟩
abbrev S1 : Shape := ⟨1, ![1]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S16384x1024, .f32⟩
  | .hbm, ⟨2, _⟩ => ⟨S32768x1024, .f32⟩
  | .hbm, ⟨3, _⟩ => ⟨S2048x8x1024, .f32⟩
  | .hbm, ⟨4, _⟩ => ⟨S2048x16x1024, .f32⟩
  | .hbm, ⟨5, _⟩ => ⟨S1x1, .f32⟩
  | .hbm, ⟨6, _⟩ => ⟨S_, .f32⟩
  | .local _ .vmem, ⟨0, _⟩ => ⟨S64x1024, .f32⟩
  | .local _ .vmem, ⟨1, _⟩ => ⟨S64x1024, .f32⟩
  | .local _ .vmem, ⟨2, _⟩ => ⟨S64x8x1024, .f32⟩
  | .local _ .vmem, ⟨3, _⟩ => ⟨S64x8x1024, .f32⟩
  | .local _ .vmem, ⟨4, _⟩ => ⟨S64x16x1024, .f32⟩
  | .local _ .vmem, ⟨5, _⟩ => ⟨S64x16x1024, .f32⟩
  | .local _ .vmem, ⟨6, _⟩ => ⟨S1x1, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S16384x1024_S2048x8x1024 : S16384x1024.ShapeCasts S2048x8x1024
  shapeCasts_S32768x1024_S2048x16x1024 : S32768x1024.ShapeCasts S2048x16x1024
  inb_S1x1_S1x1_0_0 : ∀ a, (![0, 0] : Fin 2 → Nat) a + S1x1.size a ≤ S1x1.size a
  h_S1x1 : 0 < S1x1.numel
  inb_S64x1024_S64x1024_0_0 : ∀ a, (![0, 0] : Fin 2 → Nat) a + S64x1024.size a ≤ S64x1024.size a
  h_S64x1024 : 0 < S64x1024.numel
  inb_S64x8x1024_S64x8x1024_0_0_0 : ∀ a, (![0, 0, 0] : Fin 3 → Nat) a + S64x8x1024.size a ≤ S64x8x1024.size a
  h_S64x8x1024 : 0 < S64x8x1024.numel
  shapeCasts_S64x8x1024_S64x8x1024 : S64x8x1024.ShapeCasts S64x8x1024
  inb_S64x16x1024_S64x16x1024_0_0_0 : ∀ a, (![0, 0, 0] : Fin 3 → Nat) a + S64x16x1024.size a ≤ S64x16x1024.size a
  h_S64x16x1024 : 0 < S64x16x1024.numel
  shapeCasts_S64x16x1024_S64x16x1024 : S64x16x1024.ShapeCasts S64x16x1024
  shapeCasts_S64x1024_S64x1x1024 : S64x1024.ShapeCasts S64x1x1024
  broadcasts_S64x1x1024_S64x8x1024 : S64x1x1024.Broadcasts S64x8x1024
  reduces_S64x8x1024_S64x8 : S64x8x1024.Reduces [2] S64x8
  broadcasts_S64x1x1024_S64x16x1024 : S64x1x1024.Broadcasts S64x16x1024
  reduces_S64x16x1024_S64x16 : S64x16x1024.Reduces [2] S64x16
  shapeCasts_S64x8_S64x8x1 : S64x8.ShapeCasts S64x8x1
  shapeCasts_S64x16_S64x1x16 : S64x16.ShapeCasts S64x1x16
  broadcasts_S64x8x1_S64x8x16 : S64x8x1.Broadcasts S64x8x16
  broadcasts_S64x1x16_S64x8x16 : S64x1x16.Broadcasts S64x8x16
  reduces_S64x8x16_S64x8 : S64x8x16.Reduces [2] S64x8
  reduces_S64x8_S64 : S64x8.Reduces [1] S64
  shapeCasts_S64_S64x1 : S64.ShapeCasts S64x1
  reduces_S64x1_S1 : S64x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x1024.size a ≤ S2048x1024.size a
  hwx0_0 : ∀ i : grid0.Coords, EltTy.bits .f32 = 32 ∨ (Rect.block (s := S2048x1024) S64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x8x1024.size a ≤ S2048x8x1024.size a
  hwx0_1 : ∀ i : grid0.Coords, EltTy.bits .f32 = 32 ∨ (Rect.block (s := S2048x8x1024) S64x8x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x16x1024.size a ≤ S2048x16x1024.size a
  hwx0_2 : ∀ i : grid0.Coords, EltTy.bits .f32 = 32 ∨ (Rect.block (s := S2048x16x1024) S64x16x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x8x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x16x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x1024 : Shape := ⟨2, ![2048, 1024]⟩
abbrev S16384x1024 : Shape := ⟨2, ![16384, 1024]⟩
abbrev S32768x1024 : Shape := ⟨2, ![32768, 1024]⟩
abbrev S2048x8x1024 : Shape := ⟨3, ![2048, 8, 1024]⟩
abbrev S2048x16x1024 : Shape := ⟨3, ![2048, 16, 1024]⟩
abbrev S2048x1x1024 : Shape := ⟨3, ![2048, 1, 1024]⟩
abbrev S_ : Shape := ⟨0, ![]⟩
abbrev S2048x8 : Shape := ⟨2, ![2048, 8]⟩
abbrev S2048x16 : Shape := ⟨2, ![2048, 16]⟩
abbrev S2048x8x1 : Shape := ⟨3, ![2048, 8, 1]⟩
abbrev S2048x1x16 : Shape := ⟨3, ![2048, 1, 16]⟩
abbrev S2048x8x16 : Shape := ⟨3, ![2048, 8, 16]⟩

abbrev nBuf : Space → Nat
  | .hbm => 40
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S16384x1024, .f32⟩
  | .hbm, ⟨2, _⟩ => ⟨S32768x1024, .f32⟩
  | .hbm, ⟨3, _⟩ => ⟨S2048x8x1024, .f32⟩
  | .hbm, ⟨4, _⟩ => ⟨S2048x16x1024, .f32⟩
  | .hbm, ⟨5, _⟩ => ⟨S2048x1x1024, .f32⟩
  | .hbm, ⟨6, _⟩ => ⟨S2048x8x1024, .f32⟩
  | .hbm, ⟨7, _⟩ => ⟨S2048x8x1024, .f32⟩
  | .hbm, ⟨8, _⟩ => ⟨S_, .f32⟩
  | .hbm, ⟨9, _⟩ => ⟨S2048x8x1024, .f32⟩
  | .hbm, ⟨10, _⟩ => ⟨S2048x8x1024, .f32⟩
  | .hbm, ⟨11, _⟩ => ⟨S2048x8x1024, .f32⟩
  | .hbm, ⟨12, _⟩ => ⟨S_, .f32⟩
  | .hbm, ⟨13, _⟩ => ⟨S2048x8, .f32⟩
  | .hbm, ⟨14, _⟩ => ⟨S2048x8, .f32⟩
  | .hbm, ⟨15, _⟩ => ⟨S2048x1x1024, .f32⟩
  | .hbm, ⟨16, _⟩ => ⟨S2048x16x1024, .f32⟩
  | .hbm, ⟨17, _⟩ => ⟨S2048x16x1024, .f32⟩
  | .hbm, ⟨18, _⟩ => ⟨S_, .f32⟩
  | .hbm, ⟨19, _⟩ => ⟨S2048x16x1024, .f32⟩
  | .hbm, ⟨20, _⟩ => ⟨S2048x16x1024, .f32⟩
  | .hbm, ⟨21, _⟩ => ⟨S2048x16x1024, .f32⟩
  | .hbm, ⟨22, _⟩ => ⟨S_, .f32⟩
  | .hbm, ⟨23, _⟩ => ⟨S2048x16, .f32⟩
  | .hbm, ⟨24, _⟩ => ⟨S2048x16, .f32⟩
  | .hbm, ⟨25, _⟩ => ⟨S2048x8x1, .f32⟩
  | .hbm, ⟨26, _⟩ => ⟨S2048x1x16, .f32⟩
  | .hbm, ⟨27, _⟩ => ⟨S2048x8x16, .f32⟩
  | .hbm, ⟨28, _⟩ => ⟨S2048x8x16, .f32⟩
  | .hbm, ⟨29, _⟩ => ⟨S2048x8x16, .f32⟩
  | .hbm, ⟨30, _⟩ => ⟨S_, .f32⟩
  | .hbm, ⟨31, _⟩ => ⟨S2048x8x16, .f32⟩
  | .hbm, ⟨32, _⟩ => ⟨S2048x8x16, .f32⟩
  | .hbm, ⟨33, _⟩ => ⟨S_, .f32⟩
  | .hbm, ⟨34, _⟩ => ⟨S2048x8x16, .f32⟩
  | .hbm, ⟨35, _⟩ => ⟨S2048x8x16, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩

abbrev nD : Nat := 1
abbrev τ : Topo := Topo.v7x

variable {F : FTy → Type} [FloatOps F]

class Facts₀ : Prop where
  shapeCasts_S16384x1024_S2048x8x1024 : S16384x1024.ShapeCasts S2048x8x1024
  shapeCasts_S32768x1024_S2048x16x1024 : S32768x1024.ShapeCasts S2048x16x1024
  bcast_S2048x1024_S2048x1x1024_0_2 : S2048x1024.BroadcastsInDim S2048x1x1024 (![0, 2] : Fin 2 → Fin S2048x1x1024.rank)
  bcast_S2048x1x1024_S2048x8x1024_0_1_2 : S2048x1x1024.BroadcastsInDim S2048x8x1024 (![0, 1, 2] : Fin 3 → Fin S2048x8x1024.rank)
  bcast_S_S2048x8x1024 : S_.BroadcastsInDim S2048x8x1024 (![] : Fin 0 → Fin S2048x8x1024.rank)
  reducesTo_S2048x8x1024_S2048x8_d2 : S2048x8x1024.ReducesTo [2] S2048x8
  h_S_ : 0 < S_.numel
  bcast_S2048x1x1024_S2048x16x1024_0_1_2 : S2048x1x1024.BroadcastsInDim S2048x16x1024 (![0, 1, 2] : Fin 3 → Fin S2048x16x1024.rank)
  bcast_S_S2048x16x1024 : S_.BroadcastsInDim S2048x16x1024 (![] : Fin 0 → Fin S2048x16x1024.rank)
  reducesTo_S2048x16x1024_S2048x16_d2 : S2048x16x1024.ReducesTo [2] S2048x16
  bcast_S2048x8_S2048x8x1_0_1 : S2048x8.BroadcastsInDim S2048x8x1 (![0, 1] : Fin 2 → Fin S2048x8x1.rank)
  bcast_S2048x16_S2048x1x16_0_2 : S2048x16.BroadcastsInDim S2048x1x16 (![0, 2] : Fin 2 → Fin S2048x1x16.rank)
  bcast_S2048x8x1_S2048x8x16_0_1_2 : S2048x8x1.BroadcastsInDim S2048x8x16 (![0, 1, 2] : Fin 3 → Fin S2048x8x16.rank)
  bcast_S2048x1x16_S2048x8x16_0_1_2 : S2048x1x16.BroadcastsInDim S2048x8x16 (![0, 1, 2] : Fin 3 → Fin S2048x8x16.rank)
  bcast_S_S2048x8x16 : S_.BroadcastsInDim S2048x8x16 (![] : Fin 0 → Fin S2048x8x16.rank)
  reducesTo_S2048x8x16_S_d0_1_2 : S2048x8x16.ReducesTo [0, 1, 2] S_

variable [Facts₀]

class Facts : Prop extends Facts₀ where

variable [Facts]
-- ==== Proof.BodyCases.lean ====
/-
  What one run of the kernel body leaves in the 1×1 output block, case by case, for any float instance.

  The body at a grid point computes the point's partial loss `s` (a 1×1 value, a pure function of the three
  input blocks) and adds it to the 1×1 output block, which is carried from point to point:
    first point   : the block is reset to zero, then `0 + s` is stored;
    middle points : `acc + s` is stored over the carried value `acc`;
    last point    : `acc + s` is stored, read back, and divided by the number of (anchor, positive, negative) triples.
  Each store writes the whole 1×1 block, so what the block holds afterwards is the last store's value, and a load
  of the block after a store reads what that store wrote.
-/
import proofs.«147288_j24498493456944_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Acc

open Cert.KernelIdeal Cert.KernelIdeal.Gen

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- A middle point: the carried value plus the point's partial loss. -/
theorem out_middle (c : Dev nD) (i : grid0.Coords) (a1 : Memref sig .tc .vmem S64x1024 .f32) (h1 : a1.IsWhole)
    (a2 : Memref sig .tc .vmem S64x8x1024 .f32) (h2 : a2.IsWhole) (a3 : Memref sig .tc .vmem S64x16x1024 .f32) (h3 : a3.IsWhole)
    (a4 : Memref sig .tc .vmem S1x1 .f32) (h4 : a4.IsWhole) (hc0 : ¬cond0_0 i) (hc1 : ¬cond0_1 i)
    (x0 : Vec F S64x1024 .f32) (x1 : Vec F S64x8x1024 .f32) (x2 : Vec F S64x16x1024 .f32) (xo : Vec F S1x1 .f32) :
    out0_B_3 c i a1 h1 a2 h2 a3 h3 a4 h4 hc0 hc1 x0 x1 x2 xo = k0_pay1 (k0_pay4 x0 x1 x2) xo := by
  unfold out0_B_3
  rw [View.read_writes_eq_canon _ _ _ (cover0_B_3 c i a1 h1 a2 h2 a3 h3 a4 h4 hc0 hc1 x0 x1 x2 xo)]
  unfold kernelRun0_B
  dsimp only
  sl_unfold_words
  rw [View.canon_unit_zero (S := S1x1) zeros2]
  simp only [View.readAt_eq_ld, h1.read_unread, h2.read_unread, h3.read_unread, h4.read_unread,
    View.ld_unit_zero (S := S64x1024) zeros2, View.ld_unit_zero (S := S64x8x1024) zeros3,
    View.ld_unit_zero (S := S64x16x1024) zeros3, View.ld_unit_zero (S := S1x1) zeros2]

/-- The first point: the reset value plus the point's partial loss. -/
theorem out_first (c : Dev nD) (i : grid0.Coords) (a1 : Memref sig .tc .vmem S64x1024 .f32) (h1 : a1.IsWhole)
    (a2 : Memref sig .tc .vmem S64x8x1024 .f32) (h2 : a2.IsWhole) (a3 : Memref sig .tc .vmem S64x16x1024 .f32) (h3 : a3.IsWhole)
    (a4 : Memref sig .tc .vmem S1x1 .f32) (h4 : a4.IsWhole) (hc0 : cond0_0 i) (hc1 : ¬cond0_1 i)
    (x0 : Vec F S64x1024 .f32) (x1 : Vec F S64x8x1024 .f32) (x2 : Vec F S64x16x1024 .f32) :
    out0_A_3 c i a1 h1 a2 h2 a3 h3 a4 h4 hc0 hc1 x0 x1 x2 = k0_pay1 (k0_pay4 x0 x1 x2) (k0_pay3 (F := F)) := by
  unfold out0_A_3
  rw [View.read_writes_eq_canon _ _ _ (cover0_A_3 c i a1 h1 a2 h2 a3 h3 a4 h4 hc0 hc1 x0 x1 x2)]
  unfold kernelRun0_A
  dsimp only
  sl_unfold_words
  rw [View.canon_cons_unit_zero (S := S1x1) zeros2, View.readCov_unit_zero (S := S1x1) _ zeros2]
  simp only [View.readAt_eq_ld, h1.read_unread, h2.read_unread, h3.read_unread,
    View.ld_unit_zero (S := S64x1024) zeros2, View.ld_unit_zero (S := S64x8x1024) zeros3,
    View.ld_unit_zero (S := S64x16x1024) zeros3]

/-- The last point: the carried value plus the point's partial loss, divided by the number of triples. -/
theorem out_last (c : Dev nD) (i : grid0.Coords) (a1 : Memref sig .tc .vmem S64x1024 .f32) (h1 : a1.IsWhole)
    (a2 : Memref sig .tc .vmem S64x8x1024 .f32) (h2 : a2.IsWhole) (a3 : Memref sig .tc .vmem S64x16x1024 .f32) (h3 : a3.IsWhole)
    (a4 : Memref sig .tc .vmem S1x1 .f32) (h4 : a4.IsWhole) (hc0 : ¬cond0_0 i) (hc1 : cond0_1 i)
    (x0 : Vec F S64x1024 .f32) (x1 : Vec F S64x8x1024 .f32) (x2 : Vec F S64x16x1024 .f32) (xo : Vec F S1x1 .f32) :
    out0_C_3 c i a1 h1 a2 h2 a3 h3 a4 h4 hc0 hc1 x0 x1 x2 xo = k0_pay2 (k0_pay1 (k0_pay4 x0 x1 x2) xo) := by
  unfold out0_C_3
  rw [View.read_writes_eq_canon _ _ _ (cover0_C_3 c i a1 h1 a2 h2 a3 h3 a4 h4 hc0 hc1 x0 x1 x2 xo)]
  unfold kernelRun0_C
  dsimp only
  sl_unfold_words
  rw [View.canon_cons_unit_zero (S := S1x1) zeros2, View.readCov_unit_zero (S := S1x1) _ zeros2]
  simp only [View.readAt_eq_ld, h1.read_unread, h2.read_unread, h3.read_unread, h4.read_unread,
    View.ld_unit_zero (S := S64x1024) zeros2, View.ld_unit_zero (S := S64x8x1024) zeros3,
    View.ld_unit_zero (S := S64x16x1024) zeros3, View.ld_unit_zero (S := S1x1) zeros2]

end Cert.KernelIdeal.Acc

end
-- ==== Proof.LossSpec.lean ====
/-
  The triplet margin loss as one function of three arrays over the extended reals, and the sum laws that let
  two programs add its terms up in different orders.

  For an anchor row `b` (1024 coordinates), its 8 positive rows `(b, p)` and its 16 negative rows `(b, n)`:
    rowDist A X b q   = √( Σ_z ((A[b,z] − X[b,q,z]) + ε)² )
    hinge u v      = max ((u − v) + 1, 0)
    rowLoss b      = Σ_p Σ_n hinge (rowDist A P b p) (rowDist A N b n)
  and the loss is (Σ_b rowLoss b) divided by the number of triples. Addition on the extended reals is commutative
  and associative (a commutative monoid), so the order and grouping of the sum is free; no finiteness is needed.
-/
import Idealize.ShloMosaic.PureOps.Ideal
import Idealize.ShloMosaic.PureOps.Ideal.Laws
import Idealize.ShloMosaic.Lib.ValueIdx

noncomputable section

open scoped BigOperators

namespace Cert.TripletSpec

open Idealize.ShloMosaic Idealize.ShloMosaic.ValueIdx

/-- The shift added to every coordinate difference: the f32 word nearest 1e-6, the same word in both programs. -/
abbrev shift : EReal := Ideal.ofBits .f32 0x358637BD#32
/-- The margin: the f32 word of 1. -/
abbrev margin : EReal := Ideal.ofBits .f32 0x3F800000#32
/-- The number of (anchor, positive, negative) triples, 2048·8·16, as its f32 word. -/
abbrev triples : EReal := Ideal.ofBits .f32 0x48800000#32

/-- Distance from anchor row `b` to row `(b, q)` of a stack holding `Q` rows per anchor. -/
def rowDist {R Q : Nat} (A : (⟨2, ![R, 1024]⟩ : Shape).Idx → EReal) (X : (⟨3, ![R, Q, 1024]⟩ : Shape).Idx → EReal)
    (b : Fin R) (q : Fin Q) : EReal :=
  Ideal.sqrt (∑ z : Fin 1024, ((A (ix2 b z) - X (ix3 b q z)) + shift) * ((A (ix2 b z) - X (ix3 b q z)) + shift))

/-- One triple's loss from its two distances. -/
def hinge (u v : EReal) : EReal := max ((u - v) + margin) 0

/-- The loss of all 8·16 triples of anchor row `b`. -/
def rowLoss {R : Nat} (A : (⟨2, ![R, 1024]⟩ : Shape).Idx → EReal) (P : (⟨3, ![R, 8, 1024]⟩ : Shape).Idx → EReal)
    (N : (⟨3, ![R, 16, 1024]⟩ : Shape).Idx → EReal) (b : Fin R) : EReal :=
  ∑ p : Fin 8, ∑ n : Fin 16, hinge (rowDist A P b p) (rowDist A N b n)

/-- The mean loss over all triples. -/
def meanLoss (A : (⟨2, ![2048, 1024]⟩ : Shape).Idx → EReal) (P : (⟨3, ![2048, 8, 1024]⟩ : Shape).Idx → EReal)
    (N : (⟨3, ![2048, 16, 1024]⟩ : Shape).Idx → EReal) : EReal :=
  Ideal.div (∑ a : Fin 2048, rowLoss A P N a) triples

/-- A row's loss depends only on that row of the anchors and on its own positive and negative rows: if a block's
    row `b` holds the arrays' row `a`, the two losses agree. -/
theorem rowLoss_congr {R R' : Nat} (A : (⟨2, ![R, 1024]⟩ : Shape).Idx → EReal) (P : (⟨3, ![R, 8, 1024]⟩ : Shape).Idx → EReal)
    (N : (⟨3, ![R, 16, 1024]⟩ : Shape).Idx → EReal) (A' : (⟨2, ![R', 1024]⟩ : Shape).Idx → EReal)
    (P' : (⟨3, ![R', 8, 1024]⟩ : Shape).Idx → EReal) (N' : (⟨3, ![R', 16, 1024]⟩ : Shape).Idx → EReal)
    (b : Fin R) (a : Fin R') (hA : ∀ z : Fin 1024, A (ix2 b z) = A' (ix2 a z))
    (hP : ∀ (p : Fin 8) (z : Fin 1024), P (ix3 b p z) = P' (ix3 a p z))
    (hN : ∀ (n : Fin 16) (z : Fin 1024), N (ix3 b n z) = N' (ix3 a n z)) :
    rowLoss A P N b = rowLoss A' P' N' a := by
  unfold rowLoss rowDist
  simp only [hA, hP, hN]

/-! ## Sums over index sets, by coordinates -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Row `r` of tile `t` when 2048 rows are cut into 32 tiles of 64. -/
abbrev tileRow (t : Fin 32) (r : Fin 64) : Fin 2048 := ⟨64 * t.val + r.val, by have := t.isLt; have := r.isLt; omega⟩

/-- A sum over the 2048 rows is the sum over the 32 tiles of the sums over each tile's 64 rows. -/
theorem sum_rows_by_tiles {M : Type*} [AddCommMonoid M] (g : Fin 2048 → M) :
    ∑ a : Fin 2048, g a = ∑ t : Fin 32, ∑ r : Fin 64, g (tileRow t r) := by
  rw [← Equiv.sum_comp (finProdFinEquiv : Fin 32 × Fin 64 ≃ Fin 2048) g, Fintype.sum_prod_type]
  refine Finset.sum_congr rfl fun t _ => Finset.sum_congr rfl fun r _ => congrArg g (Fin.ext ?_)
  show r.val + 64 * t.val = 64 * t.val + r.val
  omega

/-- The same sum, tile by tile in order: the running total after tile `n`, started from `z`. -/
def runningTotal {M : Type*} [AddCommMonoid M] (z : M) (s : ℕ → M) : ℕ → M
  | 0 => z + s 0
  | n + 1 => runningTotal z s n + s (n + 1)

theorem runningTotal_eq {M : Type*} [AddCommMonoid M] (z : M) (s : ℕ → M) (n : ℕ) :
    runningTotal z s n = z + ∑ k ∈ Finset.range (n + 1), s k := by
  induction n with
  | zero => simp [runningTotal]
  | succ n ih => rw [runningTotal, ih, Finset.sum_range_succ _ (n + 1), add_assoc]

end Cert.TripletSpec

end
-- ==== Proof.TilePartial.lean ====
/-
  One grid point's partial loss, read at the extended reals.

  The body turns its three input blocks — 64 anchor rows, their 64×8 positive rows and 64×16 negative rows, 1024
  coordinates each — into one number: every anchor row's loss over its 8·16 triples, summed over the 64 rows. It
  does so through vector operations: the anchors are given a unit axis and repeated along the stack axis, the
  squared shifted differences are summed along the coordinate axis, the two tables of distances are given unit axes
  and repeated against each other, and three single-axis sums take the 64×8×16 table of triple losses down to 1×1.
  Here the body's arithmetic is written as four stages of the printed operations, each stage is read at an index,
  and the whole is `Σ_b rowLoss b` over the block's 64 rows.
-/
import proofs.«147288_j24498493456944_2_alg».proof.Proof.Gen.KernelIdeal.Skeleton
import proofs.«147288_j24498493456944_2_alg».proof.Proof.LossSpec
import Idealize.ShloMosaic.Lib.Pipeline.Value
import Idealize.ShloMosaic.PureOps.Ideal.Laws
import Idealize.ShloMosaic.Lib.ValueIdx

noncomputable section

open scoped BigOperators
open Idealize.ShloMosaic Idealize.ShloMosaic.ValueIdx

namespace Cert.KernelIdeal.Partial

open Cert.KernelIdeal Cert.KernelIdeal.Gen Cert.TripletSpec

/-! ## The four stages, in the printed operations -/

/-- Anchor minus positive row plus the shift, at every (row, positive, coordinate). -/
def shiftedP (x0 : FVec Ideal S64x1024 .f32) (x1 : FVec Ideal S64x8x1024 .f32) : FVec Ideal S64x8x1024 .f32 :=
  addf (subf (broadcastTo S64x8x1024 (shapeCast S64x1x1024 x0 shapeCasts_S64x1024_S64x1x1024) broadcasts_S64x1x1024_S64x8x1024)
    (shapeCast S64x8x1024 x1 shapeCasts_S64x8x1024_S64x8x1024)) (broadcast S64x8x1024 (Scalar.ofBits .f32 0x358637BD#32))

/-- Anchor minus negative row plus the shift, at every (row, negative, coordinate). -/
def shiftedN (x0 : FVec Ideal S64x1024 .f32) (x2 : FVec Ideal S64x16x1024 .f32) : FVec Ideal S64x16x1024 .f32 :=
  addf (subf (broadcastTo S64x16x1024 (shapeCast S64x1x1024 x0 shapeCasts_S64x1024_S64x1x1024) broadcasts_S64x1x1024_S64x16x1024)
    (shapeCast S64x16x1024 x2 shapeCasts_S64x16x1024_S64x16x1024)) (broadcast S64x16x1024 (Scalar.ofBits .f32 0x358637BD#32))

/-- The 64×8 table of anchor-to-positive distances. -/
def distP (x0 : FVec Ideal S64x1024 .f32) (x1 : FVec Ideal S64x8x1024 .f32) : FVec Ideal S64x8 .f32 :=
  sqrt (multiReduction .add [2] S64x8 (mulf (shiftedP x0 x1) (shiftedP x0 x1)) 0x00000000#32 reduces_S64x8x1024_S64x8 (.inl rfl) rfl)

/-- The 64×16 table of anchor-to-negative distances. -/
def distN (x0 : FVec Ideal S64x1024 .f32) (x2 : FVec Ideal S64x16x1024 .f32) : FVec Ideal S64x16 .f32 :=
  sqrt (multiReduction .add [2] S64x16 (mulf (shiftedN x0 x2) (shiftedN x0 x2)) 0x00000000#32 reduces_S64x16x1024_S64x16 (.inl rfl) rfl)

/-- The 64×8×16 table of triple losses from the two distance tables. -/
def hingeTable (u : FVec Ideal S64x8 .f32) (v : FVec Ideal S64x16 .f32) : FVec Ideal S64x8x16 .f32 :=
  maximumf (addf (subf (broadcastTo S64x8x16 (shapeCast S64x8x1 u shapeCasts_S64x8_S64x8x1) broadcasts_S64x8x1_S64x8x16)
      (broadcastTo S64x8x16 (shapeCast S64x1x16 v shapeCasts_S64x16_S64x1x16) broadcasts_S64x1x16_S64x8x16))
    (broadcast S64x8x16 (Scalar.ofBits .f32 0x3F800000#32))) (broadcast S64x8x16 (Scalar.ofBits .f32 0x00000000#32))

/-- The table summed down to 1×1: along the negatives, then the positives, then the rows. -/
def sumTable (w : FVec Ideal S64x8x16 .f32) : FVec Ideal S1x1 .f32 :=
  shapeCast S1x1 (multiReduction .add [0] S1 (shapeCast S64x1 (multiReduction .add [1] S64
    (multiReduction .add [2] S64x8 w 0x00000000#32 reduces_S64x8x16_S64x8 (.inl rfl) rfl)
    0x00000000#32 reduces_S64x8_S64 (.inl rfl) rfl) shapeCasts_S64_S64x1) 0x00000000#32 reduces_S64x1_S1 (.inl rfl) rfl) shapeCasts_S1_S1x1

/-- The body's partial loss is these four stages composed. -/
theorem partial_stages (x0 : Vec Ideal S64x1024 .f32) (x1 : Vec Ideal S64x8x1024 .f32) (x2 : Vec Ideal S64x16x1024 .f32) :
    k0_pay4 (F := Ideal) x0 x1 x2 = sumTable (hingeTable (distP x0 x1) (distN x0 x2)) := rfl

/-! ## Each stage at an index -/

/-- The anchors, given a unit axis and repeated along 8 positives, read the anchor row's coordinate. -/
theorem anchorsP_apply (x0 : FVec Ideal S64x1024 .f32) (b : Fin 64) (p : Fin 8) (z : Fin 1024) :
    broadcastTo S64x8x1024 (shapeCast S64x1x1024 x0 shapeCasts_S64x1024_S64x1x1024) broadcasts_S64x1x1024_S64x8x1024 (ix3 b p z)
      = x0 (ix2 b z) :=
  (broadcastTo_apply _ broadcasts_S64x1x1024_S64x8x1024 (ix3 b p z) (ix3 b (0 : Fin 1) z) (fun a => match a with
    | ⟨0, _⟩ => by show b.val = if (64 : Nat) = 1 then 0 else b.val; rw [if_neg (by decide)]
    | ⟨1, _⟩ => by show 0 = if (1 : Nat) = 1 then 0 else p.val; rw [if_pos rfl]
    | ⟨2, _⟩ => by show z.val = if (1024 : Nat) = 1 then 0 else z.val; rw [if_neg (by decide)])).trans
  (shapeCast_apply x0 shapeCasts_S64x1024_S64x1x1024 (ix3 b (0 : Fin 1) z) (ix2 b z) (by
    rewrite [Shape.rowMajor_val_two, Shape.rowMajor_val_three]
    show b.val * 1024 + z.val = (b.val * 1 + 0) * 1024 + z.val
    omega))

/-- The same along 16 negatives. -/
theorem anchorsN_apply (x0 : FVec Ideal S64x1024 .f32) (b : Fin 64) (n : Fin 16) (z : Fin 1024) :
    broadcastTo S64x16x1024 (shapeCast S64x1x1024 x0 shapeCasts_S64x1024_S64x1x1024) broadcasts_S64x1x1024_S64x16x1024 (ix3 b n z)
      = x0 (ix2 b z) :=
  (broadcastTo_apply _ broadcasts_S64x1x1024_S64x16x1024 (ix3 b n z) (ix3 b (0 : Fin 1) z) (fun a => match a with
    | ⟨0, _⟩ => by show b.val = if (64 : Nat) = 1 then 0 else b.val; rw [if_neg (by decide)]
    | ⟨1, _⟩ => by show 0 = if (1 : Nat) = 1 then 0 else n.val; rw [if_pos rfl]
    | ⟨2, _⟩ => by show z.val = if (1024 : Nat) = 1 then 0 else z.val; rw [if_neg (by decide)])).trans
  (shapeCast_apply x0 shapeCasts_S64x1024_S64x1x1024 (ix3 b (0 : Fin 1) z) (ix2 b z) (by
    rewrite [Shape.rowMajor_val_two, Shape.rowMajor_val_three]
    show b.val * 1024 + z.val = (b.val * 1 + 0) * 1024 + z.val
    omega))

theorem shiftedP_apply (x0 : FVec Ideal S64x1024 .f32) (x1 : FVec Ideal S64x8x1024 .f32) (b : Fin 64) (p : Fin 8) (z : Fin 1024) :
    shiftedP x0 x1 (ix3 b p z) = (x0 (ix2 b z) - x1 (ix3 b p z)) + shift := by
  unfold shiftedP
  rw [addf_apply, subf_apply, anchorsP_apply, shapeCast_self]
  rfl

theorem shiftedN_apply (x0 : FVec Ideal S64x1024 .f32) (x2 : FVec Ideal S64x16x1024 .f32) (b : Fin 64) (n : Fin 16) (z : Fin 1024) :
    shiftedN x0 x2 (ix3 b n z) = (x0 (ix2 b z) - x2 (ix3 b n z)) + shift := by
  unfold shiftedN
  rw [addf_apply, subf_apply, anchorsN_apply, shapeCast_self]
  rfl

/-- An entry of the positive distance table is the distance of its row pair. -/
theorem distP_apply (x0 : FVec Ideal S64x1024 .f32) (x1 : FVec Ideal S64x8x1024 .f32) (b : Fin 64) (p : Fin 8) :
    distP x0 x1 (ix2 b p) = rowDist x0 x1 b p := by
  unfold distP rowDist
  refine congrArg Ideal.sqrt ?_
  refine (Ideal.multiReduction_add_single (mulf (shiftedP x0 x1) (shiftedP x0 x1)) 0x00000000#32 reduces_S64x8x1024_S64x8 (.inl rfl) rfl (ix2 b p)).trans ?_
  refine Finset.sum_congr rfl fun (z : Fin 1024) _ => ?_
  have e : (reduces_S64x8x1024_S64x8.lift (ix2 b p) z) = ix3 b p z :=
    funext fun d => Fin.ext (by match d with | ⟨0, _⟩ => rfl | ⟨1, _⟩ => rfl | ⟨2, _⟩ => rfl)
  rw [e, mulf_apply, shiftedP_apply]

/-- An entry of the negative distance table is the distance of its row pair. -/
theorem distN_apply (x0 : FVec Ideal S64x1024 .f32) (x2 : FVec Ideal S64x16x1024 .f32) (b : Fin 64) (n : Fin 16) :
    distN x0 x2 (ix2 b n) = rowDist x0 x2 b n := by
  unfold distN rowDist
  refine congrArg Ideal.sqrt ?_
  refine (Ideal.multiReduction_add_single (mulf (shiftedN x0 x2) (shiftedN x0 x2)) 0x00000000#32 reduces_S64x16x1024_S64x16 (.inl rfl) rfl (ix2 b n)).trans ?_
  refine Finset.sum_congr rfl fun (z : Fin 1024) _ => ?_
  have e : (reduces_S64x16x1024_S64x16.lift (ix2 b n) z) = ix3 b n z :=
    funext fun d => Fin.ext (by match d with | ⟨0, _⟩ => rfl | ⟨1, _⟩ => rfl | ⟨2, _⟩ => rfl)
  rw [e, mulf_apply, shiftedN_apply]

/-- The positive distances, given a trailing unit axis and repeated along 16 negatives, read the (row, positive) entry. -/
theorem spreadP_apply (u : FVec Ideal S64x8 .f32) (b : Fin 64) (p : Fin 8) (n : Fin 16) :
    broadcastTo S64x8x16 (shapeCast S64x8x1 u shapeCasts_S64x8_S64x8x1) broadcasts_S64x8x1_S64x8x16 (ix3 b p n) = u (ix2 b p) :=
  (broadcastTo_apply _ broadcasts_S64x8x1_S64x8x16 (ix3 b p n) (ix3 b p (0 : Fin 1)) (fun a => match a with
    | ⟨0, _⟩ => by show b.val = if (64 : Nat) = 1 then 0 else b.val; rw [if_neg (by decide)]
    | ⟨1, _⟩ => by show p.val = if (8 : Nat) = 1 then 0 else p.val; rw [if_neg (by decide)]
    | ⟨2, _⟩ => by show 0 = if (1 : Nat) = 1 then 0 else n.val; rw [if_pos rfl])).trans
  (shapeCast_apply u shapeCasts_S64x8_S64x8x1 (ix3 b p (0 : Fin 1)) (ix2 b p) (by
    rewrite [Shape.rowMajor_val_two, Shape.rowMajor_val_three]
    show b.val * 8 + p.val = (b.val * 8 + p.val) * 1 + 0
    omega))

/-- The negative distances, given a middle unit axis and repeated along 8 positives, read the (row, negative) entry. -/
theorem spreadN_apply (v : FVec Ideal S64x16 .f32) (b : Fin 64) (p : Fin 8) (n : Fin 16) :
    broadcastTo S64x8x16 (shapeCast S64x1x16 v shapeCasts_S64x16_S64x1x16) broadcasts_S64x1x16_S64x8x16 (ix3 b p n) = v (ix2 b n) :=
  (broadcastTo_apply _ broadcasts_S64x1x16_S64x8x16 (ix3 b p n) (ix3 b (0 : Fin 1) n) (fun a => match a with
    | ⟨0, _⟩ => by show b.val = if (64 : Nat) = 1 then 0 else b.val; rw [if_neg (by decide)]
    | ⟨1, _⟩ => by show 0 = if (1 : Nat) = 1 then 0 else p.val; rw [if_pos rfl]
    | ⟨2, _⟩ => by show n.val = if (16 : Nat) = 1 then 0 else n.val; rw [if_neg (by decide)])).trans
  (shapeCast_apply v shapeCasts_S64x16_S64x1x16 (ix3 b (0 : Fin 1) n) (ix2 b n) (by
    rewrite [Shape.rowMajor_val_two, Shape.rowMajor_val_three]
    show b.val * 16 + n.val = (b.val * 1 + 0) * 16 + n.val
    omega))

/-- An entry of the table of triple losses. -/
theorem hingeTable_apply (u : FVec Ideal S64x8 .f32) (v : FVec Ideal S64x16 .f32) (b : Fin 64) (p : Fin 8) (n : Fin 16) :
    hingeTable u v (ix3 b p n) = hinge (u (ix2 b p)) (v (ix2 b n)) := by
  unfold hingeTable hinge
  rw [maximumf_apply, addf_apply, subf_apply, spreadP_apply, spreadN_apply]
  show max (_ + Ideal.ofBits .f32 0x3F800000#32) (Ideal.ofBits .f32 0x00000000#32) = _
  rw [Ideal.ofBits_zero_f32]

/-- The table summed down to 1×1 is the triple sum of its entries. -/
theorem sumTable_apply (w : FVec Ideal S64x8x16 .f32) (y : S1x1.Idx) :
    sumTable w y = ∑ b : Fin 64, ∑ p : Fin 8, ∑ n : Fin 16, w (ix3 b p n) := by
  obtain ⟨y0, y1, rfl⟩ : ∃ (y0 : Fin 1) (y1 : Fin 1), y = ix2 y0 y1 := ⟨y 0, y 1, eq_ix2 y⟩
  unfold sumTable
  refine (shapeCast_apply _ shapeCasts_S1_S1x1 (ix2 y0 y1) (ix1 (0 : Fin 1)) (by
    rewrite [Shape.rowMajor_val_one, Shape.rowMajor_val_two]
    show 0 = y0.val * 1 + y1.val
    have := y0.isLt; have := y1.isLt; omega)).trans ?_
  refine (Ideal.multiReduction_add_single _ 0x00000000#32 reduces_S64x1_S1 (.inl rfl) rfl (ix1 (0 : Fin 1))).trans ?_
  refine Finset.sum_congr rfl fun b _ => ?_
  have e0 : (reduces_S64x1_S1.lift (ix1 (0 : Fin 1)) b) = ix2 b (0 : Fin 1) :=
    funext fun d => Fin.ext (by match d with | ⟨0, _⟩ => rfl | ⟨1, _⟩ => rfl)
  rw [e0]
  refine (shapeCast_apply _ shapeCasts_S64_S64x1 (ix2 b (0 : Fin 1)) (ix1 b) (by
    rewrite [Shape.rowMajor_val_one, Shape.rowMajor_val_two]
    show b.val = b.val * 1 + 0
    omega)).trans ?_
  refine (Ideal.multiReduction_add_single _ 0x00000000#32 reduces_S64x8_S64 (.inl rfl) rfl (ix1 b)).trans ?_
  refine Finset.sum_congr rfl fun p _ => ?_
  have e1 : (reduces_S64x8_S64.lift (ix1 b) p) = ix2 b p :=
    funext fun d => Fin.ext (by match d with | ⟨0, _⟩ => rfl | ⟨1, _⟩ => rfl)
  rw [e1]
  refine (Ideal.multiReduction_add_single w 0x00000000#32 reduces_S64x8x16_S64x8 (.inl rfl) rfl (ix2 b p)).trans ?_
  refine Finset.sum_congr rfl fun n _ => ?_
  exact congrArg w (funext fun d => Fin.ext (by match d with | ⟨0, _⟩ => rfl | ⟨1, _⟩ => rfl | ⟨2, _⟩ => rfl))

/-- The body's partial loss at a grid point: the sum of its block's 64 row losses. -/
theorem partial_eq (x0 : Vec Ideal S64x1024 .f32) (x1 : Vec Ideal S64x8x1024 .f32) (x2 : Vec Ideal S64x16x1024 .f32) (y : S1x1.Idx) :
    k0_pay4 (F := Ideal) x0 x1 x2 y = ∑ b : Fin 64, rowLoss x0 x1 x2 b := by
  rw [partial_stages, sumTable_apply]
  refine Finset.sum_congr rfl fun b _ => ?_
  unfold rowLoss
  refine Finset.sum_congr rfl fun p _ => Finset.sum_congr rfl fun n _ => ?_
  rw [hingeTable_apply, distP_apply, distN_apply]

end Cert.KernelIdeal.Partial

end
-- ==== Proof.KernelLoss.lean ====
/-
  What the kernel's 1×1 result array holds after the run, at the extended reals: the mean triplet loss.

  Point `k` of the 32 grid points reads rows 64k … 64k+63 of the anchors and of the two stacks, so its partial loss is
  the sum of those rows' losses. The output block is carried from point to point: after point `n < 31` it holds
  0 + s₀ + … + sₙ (the partial losses added in point order), and the last point adds s₃₁ and divides by the number
  of triples. Only the last point writes the block back, and the block is the whole 1×1 array. The ordered total is
  the sum over all 2048 rows because addition on the extended reals is associative and commutative.
-/
import proofs.«147288_j24498493456944_2_alg».proof.Proof.BodyCases
import proofs.«147288_j24498493456944_2_alg».proof.Proof.TilePartial
import proofs.«147288_j24498493456944_2_alg».proof.Proof.LossSpec
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.TripletSpec

variable (m : (ℓ : Loc nD τ sig) → Buf (Elt Ideal) ℓ) (ρ : Dev nD → PrngReg)

/-! ## The three small payloads at the extended reals -/

/-- The reset value is 0. -/
theorem reset_val : k0_pay3 (F := Ideal) = fun _ => (0 : EReal) := by
  funext y
  unfold k0_pay3
  exact Ideal.ofBits_zero_f32

/-- The accumulation adds the point's partial loss to the carried value. -/
theorem add_val (s : FVec Ideal S1x1 .f32) (acc : Vec Ideal S1x1 .f32) :
    k0_pay1 (F := Ideal) s acc = fun y => acc y + s y := by
  funext y
  unfold k0_pay1
  rw [shapeCast_self]
  rfl

/-- The last point divides by the number of triples. -/
theorem mean_val (v : Vec Ideal S1x1 .f32) : k0_pay2 (F := Ideal) v = fun y => Ideal.div (v y) triples := by
  funext y
  unfold k0_pay2
  rw [shapeCast_self]
  rfl

/-- A point's partial loss from its three blocks: the sum of the block's 64 row losses. -/
def tileOf (x0 : Vec Ideal S64x1024 .f32) (x1 : Vec Ideal S64x8x1024 .f32) (x2 : Vec Ideal S64x16x1024 .f32) : EReal :=
  ∑ b : Fin 64, rowLoss x0 x1 x2 b

theorem first_val (x0 : Vec Ideal S64x1024 .f32) (x1 : Vec Ideal S64x8x1024 .f32) (x2 : Vec Ideal S64x16x1024 .f32) :
    k0_pay1 (F := Ideal) (k0_pay4 x0 x1 x2) (k0_pay3 (F := Ideal)) = fun _ => 0 + tileOf x0 x1 x2 := by
  rw [add_val, reset_val]
  funext y
  rw [Partial.partial_eq]
  rfl

theorem middle_val (x0 : Vec Ideal S64x1024 .f32) (x1 : Vec Ideal S64x8x1024 .f32) (x2 : Vec Ideal S64x16x1024 .f32) (a : EReal) :
    k0_pay1 (F := Ideal) (k0_pay4 x0 x1 x2) (fun _ => a) = fun _ => a + tileOf x0 x1 x2 := by
  rw [add_val]
  funext y
  rw [Partial.partial_eq]
  rfl

theorem last_val (x0 : Vec Ideal S64x1024 .f32) (x1 : Vec Ideal S64x8x1024 .f32) (x2 : Vec Ideal S64x16x1024 .f32) (a : EReal) :
    k0_pay2 (F := Ideal) (k0_pay1 (F := Ideal) (k0_pay4 x0 x1 x2) (fun _ => a))
      = fun _ => Ideal.div (a + tileOf x0 x1 x2) triples := by
  rw [mean_val, middle_val]

/-! ## The carried block, point by point -/

/-- Point `k`'s partial loss (0 past the grid, never used). -/
def tileLoss (c : Dev nD) (k : ℕ) : EReal :=
  if h : k < cfg0.N then tileOf (iblk m c 0 ⟨k, h⟩) (iblk m c 1 ⟨k, h⟩) (iblk m c 2 ⟨k, h⟩) else 0

theorem tileLoss_of_lt (c : Dev nD) (k : ℕ) (h : k < cfg0.N) :
    tileLoss m c k = tileOf (iblk m c 0 ⟨k, h⟩) (iblk m c 1 ⟨k, h⟩) (iblk m c 2 ⟨k, h⟩) := dif_pos h

/-- After point `n < 31` the block holds the partial losses of points 0 … n added in order from 0. -/
theorem carried_eq (c : Dev nD) : ∀ (n : ℕ) (h : n < cfg0.N), n < 31 →
    outsAt0 m c n h = fun _ => runningTotal 0 (tileLoss m c) n
  | 0, h, _ => by
    rw [outsAt0_A m c ⟨0, h⟩ rfl (fun hh => by have h' : (0 : ℕ) % 32 = 31 := hh; omega)]
    rw [out_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) _ _ (iblk m c 0 ⟨0, h⟩) (iblk m c 1 ⟨0, h⟩) (iblk m c 2 ⟨0, h⟩)]
    rw [first_val (iblk m c 0 ⟨0, h⟩) (iblk m c 1 ⟨0, h⟩) (iblk m c 2 ⟨0, h⟩)]
    show (fun _ => 0 + tileOf _ _ _) = fun _ => 0 + tileLoss m c 0
    rw [tileLoss_of_lt m c 0 h]
  | n + 1, h, hn => by
    have hN : cfg0.N = 32 := N_0
    have h0 : ¬(⟨n + 1, h⟩ : Fin cfg0.N).val % 32 = 0 := by dsimp only; omega
    have h1 : ¬(⟨n + 1, h⟩ : Fin cfg0.N).val % 32 = 31 := by dsimp only; omega
    rw [outsAt0_B m c ⟨n + 1, h⟩ h0 h1]
    rw [out_middle c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) _ _ (iblk m c 0 ⟨n + 1, h⟩) (iblk m c 1 ⟨n + 1, h⟩) (iblk m c 2 ⟨n + 1, h⟩) _]
    show k0_pay1 (k0_pay4 _ _ _) (outsAt0 m c n _) = _
    rw [carried_eq c n (Nat.lt_of_succ_lt h) (by omega), middle_val]
    show (fun _ => runningTotal 0 (tileLoss m c) n + tileOf _ _ _) = fun _ => runningTotal 0 (tileLoss m c) n + tileLoss m c (n + 1)
    rw [tileLoss_of_lt m c (n + 1) h]

/-- After the last point the block holds the ordered total divided by the number of triples. -/
theorem last_eq (c : Dev nD) (h : 31 < cfg0.N) :
    outsAt0 m c 31 h = fun _ => Ideal.div (runningTotal 0 (tileLoss m c) 31) triples := by
  rw [outsAt0_C m c ⟨31, h⟩ (fun hh => by have h' : (31 : ℕ) % 32 = 0 := hh; omega) rfl]
  rw [out_last c (grid0.coords ⟨31, h⟩) (ms0_0 ⟨31, h⟩) (hs0_0 ⟨31, h⟩) (ms0_1 ⟨31, h⟩) (hs0_1 ⟨31, h⟩) (ms0_2 ⟨31, h⟩) (hs0_2 ⟨31, h⟩) (ms0_3 ⟨31, h⟩) (hs0_3 ⟨31, h⟩) _ _ (iblk m c 0 ⟨31, h⟩) (iblk m c 1 ⟨31, h⟩) (iblk m c 2 ⟨31, h⟩) _]
  show k0_pay2 (k0_pay1 (k0_pay4 _ _ _) (outsAt0 m c 30 _)) = _
  rw [carried_eq m c 30 (Nat.lt_of_succ_lt h) (by decide), last_val]
  show (fun _ => Ideal.div (runningTotal 0 (tileLoss m c) 30 + tileOf _ _ _) triples)
    = fun _ => Ideal.div (runningTotal 0 (tileLoss m c) 30 + tileLoss m c 31) triples
  rw [tileLoss_of_lt m c 31 h]

end Cert.KernelIdeal.Acc

end
-- ==== Proof.KernelResult.lean ====
/-
  From the carried block to the program's result.

  The blocks a grid point reads are rows of the arrays the region finds: the anchors as launched, and the two stacks as
  the host reshapes wrote them before the region. Row `r` of point `t`'s block is row `64·t + r` of the array, so a
  point's partial loss is the loss of its 64 rows, the ordered total over the 32 points is the total over the 2048 rows,
  and the 1×1 result array ends holding the mean loss. The host line after the region only drops the two unit axes.
-/
import proofs.«147288_j24498493456944_2_alg».proof.Proof.KernelLoss
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.TripletSpec

variable (m : (ℓ : Loc nD τ sig) → Buf (Elt Ideal) ℓ) (ρ : Dev nD → PrngReg)

/-! ## Blocks are rows of the arrays -/

/-- The printed index maps, decided over the grid: the three input windows move along the row axis with the point,
    and the output window never moves. -/
theorem index_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0 :=
  (by decide +kernel : ∀ t : Fin grid0.N, _)

/-- Row `r` of the anchor block at point `t` is row `64·t + r` of the anchors. -/
theorem anchors_blk (c : Dev nD) (t : Fin cfg0.N) (r : Fin 64) (z : Fin 1024) (a : Fin 2048) (ha : a.val = 64 * t.val + r.val) :
    (iblk m c 0 t : Vec Ideal S64x1024 .f32) (ix2 r z) = V m c main_arg0 (ix2 a z) := by
  obtain ⟨e0, e1, -⟩ := index_facts t
  unfold iblk
  rw [View.read_apply]
  show V m c main_arg0 (((cfg0.win 0).blk t).view.emb (ix2 r z)) = V m c main_arg0 (ix2 a z)
  refine congrArg (V m c main_arg0) (funext fun d => Fin.ext ?_)
  match d with
  | ⟨0, _⟩ => show win0_0.index t (0 : Fin 2) * 64 + 1 * r.val = a.val; rw [e0, ha]; omega
  | ⟨1, _⟩ => show win0_0.index t (1 : Fin 2) * 1024 + 1 * z.val = z.val; rw [e1]; omega

/-- Row `(r, p)` of the positive block at point `t` is row `(64·t + r, p)` of the positive stack. -/
theorem positives_blk (c : Dev nD) (t : Fin cfg0.N) (r : Fin 64) (p : Fin 8) (z : Fin 1024) (a : Fin 2048) (ha : a.val = 64 * t.val + r.val) :
    (iblk m c 1 t : Vec Ideal S64x8x1024 .f32) (ix3 r p z) = V m c main_v0 (ix3 a p z) := by
  obtain ⟨-, -, e0, e1, e2, -⟩ := index_facts t
  unfold iblk
  rw [View.read_apply]
  show V m c main_v0 (((cfg0.win 1).blk t).view.emb (ix3 r p z)) = V m c main_v0 (ix3 a p z)
  refine congrArg (V m c main_v0) (funext fun d => Fin.ext ?_)
  match d with
  | ⟨0, _⟩ => show win0_1.index t (0 : Fin 3) * 64 + 1 * r.val = a.val; rw [e0, ha]; omega
  | ⟨1, _⟩ => show win0_1.index t (1 : Fin 3) * 8 + 1 * p.val = p.val; rw [e1]; omega
  | ⟨2, _⟩ => show win0_1.index t (2 : Fin 3) * 1024 + 1 * z.val = z.val; rw [e2]; omega

/-- Row `(r, n)` of the negative block at point `t` is row `(64·t + r, n)` of the negative stack. -/
theorem negatives_blk (c : Dev nD) (t : Fin cfg0.N) (r : Fin 64) (n : Fin 16) (z : Fin 1024) (a : Fin 2048) (ha : a.val = 64 * t.val + r.val) :
    (iblk m c 2 t : Vec Ideal S64x16x1024 .f32) (ix3 r n z) = V m c main_v1 (ix3 a n z) := by
  obtain ⟨-, -, -, -, -, e0, e1, e2, -⟩ := index_facts t
  unfold iblk
  rw [View.read_apply]
  show V m c main_v1 (((cfg0.win 2).blk t).view.emb (ix3 r n z)) = V m c main_v1 (ix3 a n z)
  refine congrArg (V m c main_v1) (funext fun d => Fin.ext ?_)
  match d with
  | ⟨0, _⟩ => show win0_2.index t (0 : Fin 3) * 64 + 1 * r.val = a.val; rw [e0, ha]; omega
  | ⟨1, _⟩ => show win0_2.index t (1 : Fin 3) * 16 + 1 * n.val = n.val; rw [e1]; omega
  | ⟨2, _⟩ => show win0_2.index t (2 : Fin 3) * 1024 + 1 * z.val = z.val; rw [e2]; omega

/-- A point's partial loss is the loss of its 64 rows of the arrays. -/
theorem tile_eq (c : Dev nD) (t : Fin 32) (ht : t.val < cfg0.N) :
    tileOf (iblk m c 0 ⟨t.val, ht⟩) (iblk m c 1 ⟨t.val, ht⟩) (iblk m c 2 ⟨t.val, ht⟩)
      = ∑ r : Fin 64, rowLoss (V m c main_arg0) (V m c main_v0) (V m c main_v1) (tileRow t r) := by
  unfold tileOf
  refine Finset.sum_congr rfl fun (r : Fin 64) _ => ?_
  exact rowLoss_congr (iblk m c 0 ⟨t.val, ht⟩) (iblk m c 1 ⟨t.val, ht⟩) (iblk m c 2 ⟨t.val, ht⟩)
    (V m c main_arg0) (V m c main_v0) (V m c main_v1) r (tileRow t r)
    (fun z => anchors_blk m c ⟨t.val, ht⟩ r z (tileRow t r) rfl)
    (fun p z => positives_blk m c ⟨t.val, ht⟩ r p z (tileRow t r) rfl)
    (fun n z => negatives_blk m c ⟨t.val, ht⟩ r n z (tileRow t r) rfl)

/-- The ordered total over the 32 points is the total over the 2048 rows. -/
theorem total_eq (c : Dev nD) :
    runningTotal 0 (tileLoss m c) 31 = ∑ a : Fin 2048, rowLoss (V m c main_arg0) (V m c main_v0) (V m c main_v1) a := by
  rw [runningTotal_eq, zero_add, sum_rows_by_tiles, ← Fin.sum_univ_eq_sum_range (tileLoss m c) 32]
  refine Finset.sum_congr rfl fun (t : Fin 32) _ => ?_
  have ht : t.val < cfg0.N := by rw [show cfg0.N = 32 from N_0]; exact t.isLt
  rw [tileLoss_of_lt m c t.val ht, tile_eq m c t ht]

/-- The mean loss of the arrays the region finds. -/
abbrev found (c : Dev nD) : EReal := meanLoss (V m c main_arg0) (V m c main_v0) (V m c main_v1)

/-- After the last point the carried block holds it. -/
theorem last_found (c : Dev nD) (h : 31 < cfg0.N) : outsAt0 m c 31 h = fun _ => found m c := by
  rw [last_eq m c h, total_eq m c]
  rfl

/-! ## The result array -/

/-- The one write-back, at the last point, writes the mean loss: the block is the whole 1×1 array. -/
theorem flushed_eq (c : Dev nD) (t : Fin cfg0.N) (hf : (cfg0.win 3).flush t = true) :
    (dats m 0 c).flushed 3 t = ((cfg0.win 3).blk t).view.read (Elt Ideal) (fun _ => found m c) := by
  have hN : cfg0.N = 32 := N_0
  have h31 : t.val = 31 := by have := (flush0_3 t).mp hf; have := t.isLt; omega
  have hlt : 31 < cfg0.N := by omega
  obtain rfl : t = ⟨31, hlt⟩ := Fin.ext h31
  show (cfg0.win 3).cut (grid0.coords _) ((dats m 0 c).after 3 _) = _
  rw [after0_3, last_found]
  rfl

/-- The last grid point. -/
theorem lastPoint_lt : 31 < cfg0.N := by rw [show cfg0.N = 32 from N_0]; decide

/-- So the result array ends holding the mean loss. -/
theorem final_out (c : Dev nD) : (dats m 0 c).arrAt 3 cfg0.N = fun _ => found m c := by
  refine (dats m 0 c).arrAt_eq_of_cover 3 (fun _ => found m c) (flushed_eq m c) fun i => ?_
  refine ⟨⟨31, lastPoint_lt⟩, (flush0_3 _).mpr rfl, ?_⟩
  obtain ⟨-, -, -, -, -, -, -, -, e0, e1⟩ := index_facts ⟨31, lastPoint_lt⟩
  show i ∈ ((View.whole main_v2).slice (win0_3.rect ⟨31, lastPoint_lt⟩)).set
  rw [View.set_slice_whole, Rect.mem_set_unit]
  intro a
  have h0 : (i 0 : Nat) < 1 := (i 0).isLt
  have h1 : (i 1 : Nat) < 1 := (i 1).isLt
  match a with
  | ⟨0, _⟩ =>
    show win0_3.index ⟨31, lastPoint_lt⟩ (0 : Fin 2) * 1 ≤ (i 0 : Nat) ∧ (i 0 : Nat) < win0_3.index ⟨31, lastPoint_lt⟩ (0 : Fin 2) * 1 + 1
    rw [e0]; omega
  | ⟨1, _⟩ =>
    show win0_3.index ⟨31, lastPoint_lt⟩ (1 : Fin 2) * 1 ≤ (i 1 : Nat) ∧ (i 1 : Nat) < win0_3.index ⟨31, lastPoint_lt⟩ (1 : Fin 2) * 1 + 1
    rw [e1]; omega

end Cert.KernelIdeal.Acc

end
-- ==== Proof.KernelRun.lean ====
/-
  The idealized kernel's run, read: every weakly fair execution ends with the scalar result at the mean triplet loss
  of the launched arrays, and the three argument arrays unchanged.

  The region leaves the mean loss in the 1×1 array; the one host line after it reshapes 1×1 to a scalar, which keeps
  the single entry. The arrays the region finds are the anchors as launched and the two stacks as the host reshapes
  before the region wrote them.
-/
import proofs.«147288_j24498493456944_2_alg».proof.Proof.KernelResult
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.TripletSpec

variable (m : (ℓ : Loc nD τ sig) → Buf (Elt Ideal) ℓ) (ρ : Dev nD → PrngReg)

/-- The positive stack the region finds is the host reshape of the second argument. -/
theorem stackP_eq (c : Dev nD) :
    V m c main_v0 = shapeCast S2048x8x1024 (m ((c : Thread nD τ).loc main_arg1)) shapeCasts_S16384x1024_S2048x8x1024 := by
  show StableHlo.after hostOps0 (fun b => m (c, b)) (Proc.devRef .tc main_v0) = _
  after_results
  rfl

/-- The negative stack the region finds is the host reshape of the third argument. -/
theorem stackN_eq (c : Dev nD) :
    V m c main_v1 = shapeCast S2048x16x1024 (m ((c : Thread nD τ).loc main_arg2)) shapeCasts_S32768x1024_S2048x16x1024 := by
  show StableHlo.after hostOps0 (fun b => m (c, b)) (Proc.devRef .tc main_v1) = _
  after_results
  rfl

/-- The host line after the region leaves the mean loss in the scalar result. -/
theorem tail_eq (c : Dev nD) :
    Pipeline.afterTail₀ cfgs (dats m) 0 (V0 m) [hostOps1] c main_v3 = fun _ => found m c := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = (dats m 0 c).arrAt 3 cfg0.N := Pipeline.withArrays_arr spec0 launch0.win.arr_inj c _ _ 3
  rw [e, final_out]
  rfl

/-- THE RUN, READ: the scalar result at the mean loss of the arrays the region finds, the arguments unchanged. -/
theorem run : θ_run defs (onTc (τ := τ) (main (F := Ideal))) ⟨m, fun _ => 0, ρ⟩ fun r => ∀ c : Dev nD,
      r.2.mem ((c.tc : Thread nD τ).loc main_v3) = (fun _ => found m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

/-- The mean loss of the arrays the region finds is the mean loss of the launched anchors and the two reshaped
    launched stacks. -/
theorem found_eq (c : Dev nD) :
    found m c = meanLoss (m ((c : Thread nD τ).loc main_arg0))
      (shapeCast S2048x8x1024 (m ((c : Thread nD τ).loc main_arg1)) shapeCasts_S16384x1024_S2048x8x1024)
      (shapeCast S2048x16x1024 (m ((c : Thread nD τ).loc main_arg2)) shapeCasts_S32768x1024_S2048x16x1024) := by
  unfold found
  rw [V_main_arg0, stackP_eq, stackN_eq]

end Cert.KernelIdeal.Acc

end
-- ==== Proof.RefLoss.lean ====
/-
  The reference program's result is the mean triplet loss of the anchors and the two reshaped stacks.

  Its host operations, read one at a time at an index: the anchors are repeated along the stack axis, the squared
  shifted differences are summed along the coordinate axis (the sum starts from the word of zero, which is 0), the
  square roots give the two distance tables, these are repeated against each other, the hinge is taken, every entry of
  the 2048×8×16 table is added up (again from 0) and the total is divided by the number of triples. The two reshaped
  stacks enter only as arrays indexed by (row, member, coordinate); the reshape itself is never opened.
-/
import proofs.«147288_j24498493456944_2_alg».proof.Proof.Gen.ReferenceIdeal.Read
import proofs.«147288_j24498493456944_2_alg».proof.Proof.LossSpec
import Idealize.ShloMosaic.Lib.ValueIdx

noncomputable section

open scoped BigOperators
open Idealize.ShloMosaic Idealize.ShloMosaic.ValueIdx

namespace Cert.ReferenceIdeal.RefValue

open Cert.ReferenceIdeal Cert.ReferenceIdeal.Read Cert.TripletSpec

/-- The positive distance table's entry is the distance of its row pair. -/
theorem distP_apply (x0 : (⟨S2048x1024, .f32⟩ : BufTy).Contents (Elt Ideal)) (x1 : (⟨S16384x1024, .f32⟩ : BufTy).Contents (Elt Ideal))
    (a : Fin 2048) (p : Fin 8) :
    val_main_v9 (F := Ideal) x0 x1 (ix2 a p) = rowDist x0 (val_main_v0 (F := Ideal) x1) a p := by
  rw [val_main_v9_apply, val_main_v8_apply, val_main_cst_0_apply, Ideal.hostUnary_sqrt_def, Ideal.ofBits_def,
    Ideal.ofBits_zero_f32, zero_add]
  unfold rowDist
  refine congrArg Ideal.sqrt (Finset.sum_congr rfl fun (z : Fin 1024) _ => ?_)
  have e1 : idx_main_v8 (ix2 a p) z = ix3 a p z :=
    funext fun d => Fin.ext (by match d with | ⟨0, _⟩ => rfl | ⟨1, _⟩ => rfl | ⟨2, _⟩ => rfl)
  have e2 : idx_main_v2 (idx_main_v3 (ix3 a p z)) = ix2 a z :=
    funext fun d => Fin.ext (by match d with | ⟨0, _⟩ => rfl | ⟨1, _⟩ => rfl)
  rw [e1, val_main_v7_apply, val_main_v6_apply, val_main_v4_apply, val_main_v3_apply, val_main_v2_apply, e2,
    val_main_v5_apply, val_main_cst_apply]
  rfl

/-- The negative distance table's entry is the distance of its row pair. -/
theorem distN_apply (x0 : (⟨S2048x1024, .f32⟩ : BufTy).Contents (Elt Ideal)) (x2 : (⟨S32768x1024, .f32⟩ : BufTy).Contents (Elt Ideal))
    (a : Fin 2048) (n : Fin 16) :
    val_main_v17 (F := Ideal) x0 x2 (ix2 a n) = rowDist x0 (val_main_v1 (F := Ideal) x2) a n := by
  rw [val_main_v17_apply, val_main_v16_apply, val_main_cst_2_apply, Ideal.hostUnary_sqrt_def, Ideal.ofBits_def,
    Ideal.ofBits_zero_f32, zero_add]
  unfold rowDist
  refine congrArg Ideal.sqrt (Finset.sum_congr rfl fun (z : Fin 1024) _ => ?_)
  have e1 : idx_main_v16 (ix2 a n) z = ix3 a n z :=
    funext fun d => Fin.ext (by match d with | ⟨0, _⟩ => rfl | ⟨1, _⟩ => rfl | ⟨2, _⟩ => rfl)
  have e2 : idx_main_v10 (idx_main_v11 (ix3 a n z)) = ix2 a z :=
    funext fun d => Fin.ext (by match d with | ⟨0, _⟩ => rfl | ⟨1, _⟩ => rfl)
  rw [e1, val_main_v15_apply, val_main_v14_apply, val_main_v12_apply, val_main_v11_apply, val_main_v10_apply, e2,
    val_main_v13_apply, val_main_cst_1_apply]
  rfl

/-- An entry of the reference's table of triple losses. -/
theorem loss_apply (x0 : (⟨S2048x1024, .f32⟩ : BufTy).Contents (Elt Ideal)) (x1 : (⟨S16384x1024, .f32⟩ : BufTy).Contents (Elt Ideal))
    (x2 : (⟨S32768x1024, .f32⟩ : BufTy).Contents (Elt Ideal)) (a : Fin 2048) (p : Fin 8) (n : Fin 16) :
    val_main_v26 (F := Ideal) x0 x1 x2 (ix3 a p n)
      = hinge (rowDist x0 (val_main_v0 (F := Ideal) x1) a p) (rowDist x0 (val_main_v1 (F := Ideal) x2) a n) := by
  have e1 : idx_main_v18 (idx_main_v20 (ix3 a p n)) = ix2 a p :=
    funext fun d => Fin.ext (by match d with | ⟨0, _⟩ => rfl | ⟨1, _⟩ => rfl)
  have e2 : idx_main_v19 (idx_main_v21 (ix3 a p n)) = ix2 a n :=
    funext fun d => Fin.ext (by match d with | ⟨0, _⟩ => rfl | ⟨1, _⟩ => rfl)
  rw [val_main_v26_apply, val_main_v24_apply, val_main_v22_apply, val_main_v20_apply, val_main_v18_apply, e1,
    val_main_v21_apply, val_main_v19_apply, e2, val_main_v23_apply, val_main_v25_apply, val_main_cst_3_apply,
    val_main_cst_4_apply, distP_apply, distN_apply]
  unfold hinge
  rw [Ideal.maximumf_def, Ideal.addf_def, Ideal.subf_def, Ideal.ofBits_def, Ideal.ofBits_def, Ideal.ofBits_zero_f32]

/-- The reference's result, as a function of its three arguments, is the mean loss. -/
theorem result_eq (x0 : (⟨S2048x1024, .f32⟩ : BufTy).Contents (Elt Ideal)) (x1 : (⟨S16384x1024, .f32⟩ : BufTy).Contents (Elt Ideal))
    (x2 : (⟨S32768x1024, .f32⟩ : BufTy).Contents (Elt Ideal)) :
    val_main_v28 (F := Ideal) x0 x1 x2 = fun _ => meanLoss x0 (val_main_v0 (F := Ideal) x1) (val_main_v1 (F := Ideal) x2) := by
  funext i
  rw [val_main_v28_apply, val_main_v27_apply, val_main_cst_5_apply, val_main_cst_6_apply, Ideal.hostDivf_def,
    Ideal.ofBits_def, Ideal.ofBits_def, Ideal.ofBits_zero_f32, zero_add, sum_idx3]
  unfold meanLoss
  refine congrArg (fun s => Ideal.div s triples) (Finset.sum_congr rfl fun (a : Fin 2048) _ => ?_)
  unfold rowLoss
  refine Finset.sum_congr rfl fun (p : Fin 8) _ => Finset.sum_congr rfl fun (n : Fin 16) _ => ?_
  exact loss_apply x0 x1 x2 a p n

end Cert.ReferenceIdeal.RefValue

end
-- ==== Proof.lean ====
/-
  Triplet margin loss, tiled kernel against its array reference, over the extended reals.

  Both programs compute, for 2048 anchor rows with 8 positive and 16 negative rows each (1024 coordinates),
      ( Σ_b Σ_p Σ_n max( (d(b,p) − e(b,n)) + 1, 0 ) ) / 262144,
  where d(b,p) = √Σ_z ((A[b,z] − P[b,p,z]) + ε)² and e(b,n) = √Σ_z ((A[b,z] − N[b,n,z]) + ε)², with the same f32 word ε
  and the same host reshapes of the two stacks on both sides.

  The kernel walks 32 tiles of 64 anchor rows: at each tile it sums the tile's triple losses along the negatives, the
  positives and the rows, adds that partial loss to a 1×1 block carried across the grid (reset to 0 at the first tile),
  and divides by 262144 at the last tile; a final host reshape makes the 1×1 block a scalar. The reference sums the whole
  2048×8×16 table at once, starting from 0, and divides. The two results are the same extended real because the
  summands are the same, index by index, and addition on the extended reals is commutative and associative — the
  tiling and the order of the partial sums do not matter, and nothing about finiteness of the inputs is used.

  Modules: LossSpec (the loss as one function, the sum laws), RefLoss (the reference is that function), BodyCases
  (what one run of the body leaves in the carried block), TilePartial (a tile's partial loss), KernelLoss (the carried
  block point by point), KernelResult (blocks are rows of the arrays; the result array), KernelRun (the run, read).
  The three frames are the generated ones; the ideal pass rewrote nothing, so `preserves` is `True`.
-/
import proofs.«147288_j24498493456944_2_alg».proof.Defs
import proofs.«147288_j24498493456944_2_alg».proof.Proof.Gen.Kernel
import proofs.«147288_j24498493456944_2_alg».proof.Proof.Gen.Kernel.Skeleton
import proofs.«147288_j24498493456944_2_alg».proof.Proof.Gen.Kernel.Launch
import proofs.«147288_j24498493456944_2_alg».proof.Proof.Gen.Kernel.Points
import proofs.«147288_j24498493456944_2_alg».proof.Proof.Gen.Kernel.Frame
import proofs.«147288_j24498493456944_2_alg».proof.Proof.Gen.KernelIdeal
import proofs.«147288_j24498493456944_2_alg».proof.Proof.Gen.KernelIdeal.Skeleton
import proofs.«147288_j24498493456944_2_alg».proof.Proof.Gen.KernelIdeal.Launch
import proofs.«147288_j24498493456944_2_alg».proof.Proof.Gen.KernelIdeal.Points
import proofs.«147288_j24498493456944_2_alg».proof.Proof.Gen.KernelIdeal.Frame
import proofs.«147288_j24498493456944_2_alg».proof.Proof.Gen.ReferenceIdeal
import proofs.«147288_j24498493456944_2_alg».proof.Proof.Gen.Pre_finite_inputs
import proofs.«147288_j24498493456944_2_alg».proof.Proof.Gen.ReferenceIdeal.Run
import proofs.«147288_j24498493456944_2_alg».proof.Proof.Gen.ReferenceIdeal.Read
import proofs.«147288_j24498493456944_2_alg».proof.Proof.KernelRun
import proofs.«147288_j24498493456944_2_alg».proof.Proof.RefLoss
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both idealized programs end with the mean triplet loss of the launched
    anchors and the two reshaped launched stacks. -/
theorem algebraic : Cert.algebraic_KernelIdeal_ReferenceIdeal := by
  intro m ρ m' ρ' _ hagree
  refine ⟨fun c => fun _ => Cert.KernelIdeal.Acc.found m c, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.RefValue.result_eq, (hagree c).1, (hagree c).2.1,
    (hagree c).2.2]
  show _ = fun _ => Cert.KernelIdeal.Acc.found m c
  rw [Cert.KernelIdeal.Acc.found_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
